-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4x512x512 : Shape := ⟨3, ![4, 512, 512]⟩
abbrev S7x16 : Shape := ⟨2, ![7, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S7x16 : S_.BroadcastsInDim S7x16 (![] : Fin 0 → Fin S7x16.rank)
  reducesTo_S7x16_S_d0_1 : S7x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S16x3 .f32) (main_v50 : FVec F S16x3 .f32) : IVec S_ 1 :=
  let main_v51 : IVec S16x3 1 := cmpf .olt main_v49 main_v50
  let main_c_19 : IVec S_ 1 := constantI S_ 1 1#1
  let main_v52 : IVec S_ 1 := (fun x v => Host.reduce IntOp.andi x v reducesTo_S16x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S16 .f32) (main_arg8 : FVec F S16x16 .f32) (main_arg9 : FVec F S16 .f32) (main_arg10 : FVec F S16x3 .f32) (main_arg11 : FVec F S3 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x3 .f32 := Host.absf main_arg10
  let main_cst_18 : FVec F S_ .f32 := constant S_ .f32 0x7F800000#32
  let main_v50 : FVec F S16x3 .f32 := broadcastInDim S16x3 ![] bcast_S_S16x3 main_cst_18
  fn_part3 (F := F) main_arg11 main_v48 main_v49 main_v50

def fn_part1 {F : FTy → Type} [FloatOps F] (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S16x3 .f32) (main_arg11 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4000000x3 .f32) (main_arg1 : FVec F S4x512x512 .f32) (main_arg2 : FVec F S7x16 .f32) (main_arg3 : FVec F S16 .f32) (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S16x3 .f32) (main_arg11 : FVec F S3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S7x16 .f32 := Host.absf main_arg2
  let main_cst_2 : FVec F S_ .f32 := constant S_ .f32 0x7F800000#32
  let main_v10 : FVec F S7x16 .f32 := broadcastInDim S7x16 ![] bcast_S_S7x16 main_cst_2
  let main_v11 : IVec S7x16 1 := cmpf .olt main_v9 main_v10
  let main_c_3 : IVec S_ 1 := constantI S_ 1 1#1
  let main_v12 : IVec S_ 1 := (fun x v => Host.reduce IntOp.andi x v reducesTo_S7x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_v13 main_v16
-- ==== Kernel.lean ====
abbrev S4000000x3 : Shape := ⟨2, ![4000000, 3]⟩
abbrev S4x512x512 : Shape := ⟨3, ![4, 512, 512]⟩
abbrev S7x16 : Shape := ⟨2, ![7, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩
abbrev S4x4000000 : Shape := ⟨2, ![4, 4000000]⟩
abbrev S1x4000000 : Shape := ⟨2, ![1, 4000000]⟩
abbrev S4000000x4 : Shape := ⟨2, ![4000000, 4]⟩
abbrev S4000000x7 : Shape := ⟨2, ![4000000, 7]⟩
abbrev S1x16 : Shape := ⟨2, ![1, 16]⟩
abbrev S1x3 : Shape := ⟨2, ![1, 3]⟩
abbrev S8000x7 : Shape := ⟨2, ![8000, 7]⟩
abbrev S8000x3 : Shape := ⟨2, ![8000, 3]⟩
abbrev S8000x16 : Shape := ⟨2, ![8000, 16]⟩

abbrev nBuf : Space → Nat
  | .hbm => 198
  | .vmem => 14
  | .smem => 0
  | _ => 0

abbrev hbmTy0_0 (i : Nat) : BufTy := match i % 128 with
  | 0 => ⟨S4000000x3, .f32⟩
  | 1 => ⟨S4x512x512, .f32⟩
  | 2 => ⟨S7x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S16x3, .f32⟩
  | 11 => ⟨S3, .f32⟩
  | 12 => ⟨S4000000x2, .f32⟩
  | 13 => ⟨S_, .f32⟩
  | 14 => ⟨S4000000x2, .f32⟩
  | 15 => ⟨S4000000x2, .f32⟩
  | 16 => ⟨S_, .f32⟩
  | 17 => ⟨S4000000x2, .f32⟩
  | 18 => ⟨S4000000x2, .f32⟩
  | 19 => ⟨S4000000x1, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S4000000, .f32⟩
  | 32 => ⟨S4000000, .f32⟩
  | 33 => ⟨S_, .f32⟩
  | 34 => ⟨S_, .f32⟩
  | 35 => ⟨S_, .f32⟩
  | 36 => ⟨S4000000, .f32⟩
  | 37 => ⟨S4000000, .f32⟩
  | 38 => ⟨S_, .f32⟩
  | 39 => ⟨S4000000, .f32⟩
  | 40 => ⟨S4000000, .f32⟩
  | 41 => ⟨S4000000x1, .f32⟩
  | 42 => ⟨S4000000, .f32⟩
  | 43 => ⟨S_, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S_, .f32⟩
  | 57 => ⟨S_, .f32⟩
  | 58 => ⟨S4000000, .f32⟩
  | 59 => ⟨S4000000, .f32⟩
  | 60 => ⟨S_, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .i32⟩
  | 68 => ⟨S4000000, .i32⟩
  | 69 => ⟨S_, .i32⟩
  | 70 => ⟨S4000000, .i32⟩
  | 71 => ⟨S4000000, .i32⟩
  | 72 => ⟨S_, .i32⟩
  | 73 => ⟨S4000000, .i32⟩
  | 74 => ⟨S4000000, .i32⟩
  | 75 => ⟨S_, .i32⟩
  | 76 => ⟨S4000000, .i32⟩
  | 77 => ⟨S4000000, .i32⟩
  | 78 => ⟨S_, .i32⟩
  | 79 => ⟨S4000000, .i32⟩
  | 80 => ⟨S4000000, .i32⟩
  | 81 => ⟨S_, .i32⟩
  | 82 => ⟨S4000000, .i32⟩
  | 83 => ⟨S4000000, .i1⟩
  | 84 => ⟨S_, .i32⟩
  | 85 => ⟨S4000000, .i32⟩
  | 86 => ⟨S4000000, .i32⟩
  | 87 => ⟨S4000000, .i32⟩
  | 88 => ⟨S_, .i32⟩
  | 89 => ⟨S4000000, .i32⟩
  | 90 => ⟨S4000000, .i1⟩
  | 91 => ⟨S_, .i32⟩
  | 92 => ⟨S4000000, .i32⟩
  | 93 => ⟨S4000000, .i32⟩
  | 94 => ⟨S4000000, .i32⟩
  | 95 => ⟨S4000000x1, .i32⟩
  | 96 => ⟨S4000000x1, .i32⟩
  | 97 => ⟨S4000000x2, .i32⟩
  | 98 => ⟨S4x4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000x1, .i32⟩
  | 115 => ⟨S4000000x2, .i32⟩
  | 116 => ⟨S4x4000000, .f32⟩
  | 117 => ⟨S_, .i32⟩
  | 118 => ⟨S4000000, .i32⟩
  | 119 => ⟨S4000000, .i1⟩
  | 120 => ⟨S_, .i32⟩
  | 121 => ⟨S4000000, .i32⟩
  | 122 => ⟨S4000000, .i32⟩
  | 123 => ⟨S4000000, .i32⟩
  | 124 => ⟨S_, .i32⟩
  | 125 => ⟨S4000000, .i32⟩
  | 126 => ⟨S4000000, .i1⟩
  | 127 => ⟨S_, .i32⟩
  | _ => ⟨S4000000x3, .f32⟩

abbrev hbmTy0_1 (i : Nat) : BufTy := match i % 128 with
  | 0 => ⟨S4000000, .i32⟩
  | 1 => ⟨S4000000, .i32⟩
  | 2 => ⟨S4000000, .i32⟩
  | 3 => ⟨S4000000x1, .i32⟩
  | 4 => ⟨S4000000x1, .i32⟩
  | 5 => ⟨S4000000x2, .i32⟩
  | 6 => ⟨S4x4000000, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x1, .i32⟩
  | 23 => ⟨S4000000x2, .i32⟩
  | 24 => ⟨S4x4000000, .f32⟩
  | 25 => ⟨S_, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S4000000, .f32⟩
  | 32 => ⟨S1x4000000, .f32⟩
  | 33 => ⟨S4x4000000, .f32⟩
  | 34 => ⟨S4x4000000, .f32⟩
  | 35 => ⟨S_, .f32⟩
  | 36 => ⟨S4000000, .f32⟩
  | 37 => ⟨S4000000, .f32⟩
  | 38 => ⟨S4000000, .f32⟩
  | 39 => ⟨S1x4000000, .f32⟩
  | 40 => ⟨S4x4000000, .f32⟩
  | 41 => ⟨S4x4000000, .f32⟩
  | 42 => ⟨S4x4000000, .f32⟩
  | 43 => ⟨S_, .f32⟩
  | 44 => ⟨S4000000, .f32⟩
  | 45 => ⟨S4000000, .f32⟩
  | 46 => ⟨S4000000, .f32⟩
  | 47 => ⟨S1x4000000, .f32⟩
  | 48 => ⟨S4x4000000, .f32⟩
  | 49 => ⟨S4x4000000, .f32⟩
  | 50 => ⟨S4x4000000, .f32⟩
  | 51 => ⟨S4000000, .f32⟩
  | 52 => ⟨S1x4000000, .f32⟩
  | 53 => ⟨S4x4000000, .f32⟩
  | 54 => ⟨S4x4000000, .f32⟩
  | 55 => ⟨S4x4000000, .f32⟩
  | 56 => ⟨S4000000x4, .f32⟩
  | 57 => ⟨S4000000x7, .f32⟩
  | 58 => ⟨S4000000x7, .bf16⟩
  | 59 => ⟨S7x16, .bf16⟩
  | 60 => ⟨S16x16, .bf16⟩
  | 61 => ⟨S16x16, .bf16⟩
  | 62 => ⟨S16x16, .bf16⟩
  | 63 => ⟨S16x3, .bf16⟩
  | 64 => ⟨S1x16, .f32⟩
  | 65 => ⟨S1x16, .f32⟩
  | 66 => ⟨S1x16, .f32⟩
  | 67 => ⟨S1x16, .f32⟩
  | 68 => ⟨S1x3, .f32⟩
  | 69 => ⟨S4000000x3, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | .local _ .vmem, ⟨0, _⟩ => ⟨S8000x7, .bf16⟩
  | .local _ .vmem, ⟨1, _⟩ => ⟨S8000x7, .bf16⟩
  | .local _ .vmem, ⟨2, _⟩ => ⟨S7x16, .bf16⟩
  | .local _ .vmem, ⟨3, _⟩ => ⟨S1x16, .f32⟩
  | .local _ .vmem, ⟨4, _⟩ => ⟨S16x16, .bf16⟩
  | .local _ .vmem, ⟨5, _⟩ => ⟨S1x16, .f32⟩
  | .local _ .vmem, ⟨6, _⟩ => ⟨S16x16, .bf16⟩
  | .local _ .vmem, ⟨7, _⟩ => ⟨S1x16, .f32⟩
  | .local _ .vmem, ⟨8, _⟩ => ⟨S16x16, .bf16⟩
  | .local _ .vmem, ⟨9, _⟩ => ⟨S1x16, .f32⟩
  | .local _ .vmem, ⟨10, _⟩ => ⟨S16x3, .bf16⟩
  | .local _ .vmem, ⟨11, _⟩ => ⟨S1x3, .f32⟩
  | .local _ .vmem, ⟨12, _⟩ => ⟨S8000x3, .f32⟩
  | .local _ .vmem, ⟨13, _⟩ => ⟨S8000x3, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_7 : Ref sig .tc := ⟨.hbm, 43, rfl⟩
abbrev main_v18 : Ref sig .tc := ⟨.hbm, 44, rfl⟩
abbrev main_v19 : Ref sig .tc := ⟨.hbm, 45, rfl⟩
abbrev main_cst_8 : Ref sig .tc := ⟨.hbm, 46, rfl⟩
abbrev main_v20 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_cst_10 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c : Ref sig .tc := ⟨.hbm, 69, rfl⟩
abbrev main_v33 : Ref sig .tc := ⟨.hbm, 70, rfl⟩
abbrev main_v34 : Ref sig .tc := ⟨.hbm, 71, rfl⟩
abbrev main_c_13 : Ref sig .tc := ⟨.hbm, 72, rfl⟩
abbrev main_v35 : Ref sig .tc := ⟨.hbm, 73, rfl⟩
abbrev main_v36 : Ref sig .tc := ⟨.hbm, 74, rfl⟩
abbrev main_c_14 : Ref sig .tc := ⟨.hbm, 75, rfl⟩
abbrev main_v37 : Ref sig .tc := ⟨.hbm, 76, rfl⟩
abbrev main_v38 : Ref sig .tc := ⟨.hbm, 77, rfl⟩
abbrev main_c_15 : Ref sig .tc := ⟨.hbm, 78, rfl⟩
abbrev main_v39 : Ref sig .tc := ⟨.hbm, 79, rfl⟩
abbrev main_v40 : Ref sig .tc := ⟨.hbm, 80, rfl⟩
abbrev main_c_16 : Ref sig .tc := ⟨.hbm, 81, rfl⟩
abbrev main_v41 : Ref sig .tc := ⟨.hbm, 82, rfl⟩
abbrev main_v42 : Ref sig .tc := ⟨.hbm, 83, rfl⟩
abbrev main_c_17 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_18 : Ref sig .tc := ⟨.hbm, 88, rfl⟩
abbrev main_v46 : Ref sig .tc := ⟨.hbm, 89, rfl⟩
abbrev main_v47 : Ref sig .tc := ⟨.hbm, 90, rfl⟩
abbrev main_c_19 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_c_21 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_22 : Ref sig .tc := ⟨.hbm, 106, rfl⟩
abbrev main_v60 : Ref sig .tc := ⟨.hbm, 107, rfl⟩
abbrev main_v61 : Ref sig .tc := ⟨.hbm, 108, rfl⟩
abbrev main_c_23 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_24 : Ref sig .tc := ⟨.hbm, 117, rfl⟩
abbrev main_v69 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_26 : Ref sig .tc := ⟨.hbm, 124, rfl⟩
abbrev main_v74 : Ref sig .tc := ⟨.hbm, 125, rfl⟩
abbrev main_v75 : Ref sig .tc := ⟨.hbm, 126, rfl⟩
abbrev main_c_27 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_28 : Ref sig .tc := ⟨.hbm, 135, rfl⟩
abbrev main_v83 : Ref sig .tc := ⟨.hbm, 136, rfl⟩
abbrev main_v84 : Ref sig .tc := ⟨.hbm, 137, rfl⟩
abbrev main_c_29 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_30 : Ref sig .tc := ⟨.hbm, 142, rfl⟩
abbrev main_v88 : Ref sig .tc := ⟨.hbm, 143, rfl⟩
abbrev main_v89 : Ref sig .tc := ⟨.hbm, 144, rfl⟩
abbrev main_c_31 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_32 : Ref sig .tc := ⟨.hbm, 153, rfl⟩
abbrev main_v97 : Ref sig .tc := ⟨.hbm, 154, rfl⟩
abbrev main_v98 : Ref sig .tc := ⟨.hbm, 155, rfl⟩
abbrev main_cst_33 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_34 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_35 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x7 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S4000000x3_S4000000x2_0_0 : S4000000x3.Slices ![0, 0] S4000000x2
  bcast_S_S4000000x2 : S_.BroadcastsInDim S4000000x2 (![] : Fin 0 → Fin S4000000x2.rank)
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S4000000_S1x4000000_1 : S4000000.BroadcastsInDim S1x4000000 (![1] : Fin 1 → Fin S1x4000000.rank)
  bcast_S1x4000000_S4x4000000_0_1 : S1x4000000.BroadcastsInDim S4x4000000 (![0, 1] : Fin 2 → Fin S4x4000000.rank)
  transposes_S4x4000000_S4000000x4_1_0 : S4x4000000.Transposes [1, 0] S4000000x4
  concatenates_S4000000x3_S4000000x4_S4000000x7_d1 : Shape.Concatenates [S4000000x3, S4000000x4] S4000000x7 1
  bitsLt_bf16_f32 : FTy.bits .bf16 < FTy.bits .f32
  shapeCasts_S16_S1x16 : S16.ShapeCasts S1x16
  shapeCasts_S3_S1x3 : S3.ShapeCasts S1x3
  inb_S8000x7_S8000x7_0_0 : ∀ a, (![0, 0] : Fin 2 → Nat) a + S8000x7.size a ≤ S8000x7.size a
  h_S8000x7 : 0 < S8000x7.numel
  shapeCasts_S8000x7_S8000x7 : S8000x7.ShapeCasts S8000x7
  inb_S7x16_S7x16_0_0 : ∀ a, (![0, 0] : Fin 2 → Nat) a + S7x16.size a ≤ S7x16.size a
  h_S7x16 : 0 < S7x16.numel
  shapeCasts_S7x16_S7x16 : S7x16.ShapeCasts S7x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8000x3 : S1x3.Broadcasts S8000x3
  inb_S8000x3_S8000x3_0_0 : ∀ a, (![0, 0] : Fin 2 → Nat) a + S8000x3.size a ≤ S8000x3.size a
  h_S8000x3 : 0 < S8000x3.numel
  gather_S4x512x512_S4000000x2_S4x4000000_0_12_n_n_12_1_411_wf : GatherDims.WF S4x512x512 S4000000x2 S4x4000000 [0] [1, 2] [] [1, 2] [] 1 ![4, 1, 1]
  dot_S8000x7_S7x16_S8000x16_1_0_0_1_n_n_wf : DotDims.WF S8000x7 S7x16 S8000x16 [1] [0] [0] [1] [] []
  dot_S8000x16_S16x16_S8000x16_1_0_0_1_n_n_wf : DotDims.WF S8000x16 S16x16 S8000x16 [1] [0] [0] [1] [] []
  dot_S8000x16_S16x3_S8000x3_1_0_0_1_n_n_wf : DotDims.WF S8000x16 S16x3 S8000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x7.size a ≤ S4000000x7.size a
  hwx0_0 : ∀ i : grid0.Coords, EltTy.bits .bf16 = 32 ∨ (Rect.block (s := S4000000x7) S8000x7.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x16.size a ≤ S7x16.size a
  hwx0_1 : ∀ i : grid0.Coords, EltTy.bits .bf16 = 32 ∨ (Rect.block (s := S7x16) S7x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .bf16 = 32 ∨ (Rect.block (s := S16x16) S16x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .bf16 = 32 ∨ (Rect.block (s := S16x16) S16x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .bf16 = 32 ∨ (Rect.block (s := S16x16) S16x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x3.size a ≤ S16x3.size a
  hwx0_9 : ∀ i : grid0.Coords, EltTy.bits .bf16 = 32 ∨ (Rect.block (s := S16x3) S16x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x3.size a ≤ S4000000x3.size a
  hwx0_11 : ∀ i : grid0.Coords, EltTy.bits .f32 = 32 ∨ (Rect.block (s := S4000000x3) S8000x3.size (cc0_transform_11 i) (hinb0_11 i)).WholeWords (EltTy.packing .f32)

variable [Facts₀]

def gather_S4x512x512_S4000000x2_S4x4000000_0_12_n_n_12_1_411 : GatherDims S4x512x512 S4000000x2 S4x4000000 where
  offsetDims := [0]
  collapsedSliceDims := [1, 2]
  operandBatchingDims := []
  startIndicesBatchingDims := []
  startIndexMap := [1, 2]
  indexVectorDim := 1
  sliceSizes := ![4, 1, 1]
  wf := gather_S4x512x512_S4000000x2_S4x4000000_0_12_n_n_12_1_411_wf
def dot_S8000x7_S7x16_S8000x16_1_0_0_1_n_n : DotDims S8000x7 S7x16 S8000x16 where
  lhsContracting := [1]
  rhsContracting := [0]
  lhsNonContracting := [0]
  rhsNonContracting := [1]
  lhsBatch := []
  rhsBatch := []
  wf := dot_S8000x7_S7x16_S8000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x16_S16x3_S8000x3_1_0_0_1_n_n : DotDims S8000x16 S16x3 S8000x3 where
  lhsContracting := [1]
  rhsContracting := [0]
  lhsNonContracting := [0]
  rhsNonContracting := [1]
  lhsBatch := []
  rhsBatch := []
  wf := dot_S8000x16_S16x3_S8000x3_1_0_0_1_n_n_wf

abbrev win0_0 : Pipeline.Window sig grid0 :=
  Pipeline.Window.ofSpec (Memref.whole main_v126) S8000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v127) S7x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v132) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v128) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v133) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v129) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v134) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v130) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v135) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v131) S16x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v136) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v137) S8000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4x512x512 : Shape := ⟨3, ![4, 512, 512]⟩
abbrev S7x16 : Shape := ⟨2, ![7, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩
abbrev S4x4000000 : Shape := ⟨2, ![4, 4000000]⟩
abbrev S1x4000000 : Shape := ⟨2, ![1, 4000000]⟩
abbrev S4000000x4 : Shape := ⟨2, ![4000000, 4]⟩
abbrev S4000000x7 : Shape := ⟨2, ![4000000, 7]⟩
abbrev S4000000x16 : Shape := ⟨2, ![4000000, 16]⟩
abbrev S1x16 : Shape := ⟨2, ![1, 16]⟩
abbrev S1x3 : Shape := ⟨2, ![1, 3]⟩

abbrev nBuf : Space → Nat
  | .hbm => 218
  | .vmem => 0
  | .smem => 0
  | _ => 0

abbrev hbmTy0_0 (i : Nat) : BufTy := match i % 128 with
  | 0 => ⟨S4000000x3, .f32⟩
  | 1 => ⟨S4x512x512, .f32⟩
  | 2 => ⟨S7x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S16x3, .f32⟩
  | 11 => ⟨S3, .f32⟩
  | 12 => ⟨S4000000x2, .f32⟩
  | 13 => ⟨S_, .f32⟩
  | 14 => ⟨S4000000x2, .f32⟩
  | 15 => ⟨S4000000x2, .f32⟩
  | 16 => ⟨S_, .f32⟩
  | 17 => ⟨S4000000x2, .f32⟩
  | 18 => ⟨S4000000x2, .f32⟩
  | 19 => ⟨S4000000x1, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S4000000, .f32⟩
  | 32 => ⟨S4000000, .f32⟩
  | 33 => ⟨S_, .f32⟩
  | 34 => ⟨S_, .f32⟩
  | 35 => ⟨S_, .f32⟩
  | 36 => ⟨S4000000, .f32⟩
  | 37 => ⟨S4000000, .f32⟩
  | 38 => ⟨S_, .f32⟩
  | 39 => ⟨S4000000, .f32⟩
  | 40 => ⟨S4000000, .f32⟩
  | 41 => ⟨S4000000x1, .f32⟩
  | 42 => ⟨S4000000, .f32⟩
  | 43 => ⟨S_, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S_, .f32⟩
  | 57 => ⟨S_, .f32⟩
  | 58 => ⟨S4000000, .f32⟩
  | 59 => ⟨S4000000, .f32⟩
  | 60 => ⟨S_, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .i32⟩
  | 68 => ⟨S4000000, .i32⟩
  | 69 => ⟨S_, .i32⟩
  | 70 => ⟨S4000000, .i32⟩
  | 71 => ⟨S4000000, .i32⟩
  | 72 => ⟨S_, .i32⟩
  | 73 => ⟨S4000000, .i32⟩
  | 74 => ⟨S4000000, .i32⟩
  | 75 => ⟨S_, .i32⟩
  | 76 => ⟨S4000000, .i32⟩
  | 77 => ⟨S4000000, .i32⟩
  | 78 => ⟨S_, .i32⟩
  | 79 => ⟨S4000000, .i32⟩
  | 80 => ⟨S4000000, .i32⟩
  | 81 => ⟨S_, .i32⟩
  | 82 => ⟨S4000000, .i32⟩
  | 83 => ⟨S4000000, .i1⟩
  | 84 => ⟨S_, .i32⟩
  | 85 => ⟨S4000000, .i32⟩
  | 86 => ⟨S4000000, .i32⟩
  | 87 => ⟨S4000000, .i32⟩
  | 88 => ⟨S_, .i32⟩
  | 89 => ⟨S4000000, .i32⟩
  | 90 => ⟨S4000000, .i1⟩
  | 91 => ⟨S_, .i32⟩
  | 92 => ⟨S4000000, .i32⟩
  | 93 => ⟨S4000000, .i32⟩
  | 94 => ⟨S4000000, .i32⟩
  | 95 => ⟨S4000000x1, .i32⟩
  | 96 => ⟨S4000000x1, .i32⟩
  | 97 => ⟨S4000000x2, .i32⟩
  | 98 => ⟨S4x4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000x1, .i32⟩
  | 115 => ⟨S4000000x2, .i32⟩
  | 116 => ⟨S4x4000000, .f32⟩
  | 117 => ⟨S_, .i32⟩
  | 118 => ⟨S4000000, .i32⟩
  | 119 => ⟨S4000000, .i1⟩
  | 120 => ⟨S_, .i32⟩
  | 121 => ⟨S4000000, .i32⟩
  | 122 => ⟨S4000000, .i32⟩
  | 123 => ⟨S4000000, .i32⟩
  | 124 => ⟨S_, .i32⟩
  | 125 => ⟨S4000000, .i32⟩
  | 126 => ⟨S4000000, .i1⟩
  | 127 => ⟨S_, .i32⟩
  | _ => ⟨S4000000x3, .f32⟩

abbrev hbmTy0_1 (i : Nat) : BufTy := match i % 128 with
  | 0 => ⟨S4000000, .i32⟩
  | 1 => ⟨S4000000, .i32⟩
  | 2 => ⟨S4000000, .i32⟩
  | 3 => ⟨S4000000x1, .i32⟩
  | 4 => ⟨S4000000x1, .i32⟩
  | 5 => ⟨S4000000x2, .i32⟩
  | 6 => ⟨S4x4000000, .f32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x1, .i32⟩
  | 23 => ⟨S4000000x2, .i32⟩
  | 24 => ⟨S4x4000000, .f32⟩
  | 25 => ⟨S_, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S4000000, .f32⟩
  | 32 => ⟨S1x4000000, .f32⟩
  | 33 => ⟨S4x4000000, .f32⟩
  | 34 => ⟨S4x4000000, .f32⟩
  | 35 => ⟨S_, .f32⟩
  | 36 => ⟨S4000000, .f32⟩
  | 37 => ⟨S4000000, .f32⟩
  | 38 => ⟨S4000000, .f32⟩
  | 39 => ⟨S1x4000000, .f32⟩
  | 40 => ⟨S4x4000000, .f32⟩
  | 41 => ⟨S4x4000000, .f32⟩
  | 42 => ⟨S4x4000000, .f32⟩
  | 43 => ⟨S_, .f32⟩
  | 44 => ⟨S4000000, .f32⟩
  | 45 => ⟨S4000000, .f32⟩
  | 46 => ⟨S4000000, .f32⟩
  | 47 => ⟨S1x4000000, .f32⟩
  | 48 => ⟨S4x4000000, .f32⟩
  | 49 => ⟨S4x4000000, .f32⟩
  | 50 => ⟨S4x4000000, .f32⟩
  | 51 => ⟨S4000000, .f32⟩
  | 52 => ⟨S1x4000000, .f32⟩
  | 53 => ⟨S4x4000000, .f32⟩
  | 54 => ⟨S4x4000000, .f32⟩
  | 55 => ⟨S4x4000000, .f32⟩
  | 56 => ⟨S4000000x4, .f32⟩
  | 57 => ⟨S4000000x7, .f32⟩
  | 58 => ⟨S4000000x16, .f32⟩
  | 59 => ⟨S1x16, .f32⟩
  | 60 => ⟨S4000000x16, .f32⟩
  | 61 => ⟨S4000000x16, .f32⟩
  | 62 => ⟨S_, .f32⟩
  | 63 => ⟨S4000000x16, .f32⟩
  | 64 => ⟨S4000000x16, .f32⟩
  | 65 => ⟨S4000000x16, .f32⟩
  | 66 => ⟨S1x16, .f32⟩
  | 67 => ⟨S4000000x16, .f32⟩
  | 68 => ⟨S4000000x16, .f32⟩
  | 69 => ⟨S_, .f32⟩
  | 70 => ⟨S4000000x16, .f32⟩
  | 71 => ⟨S4000000x16, .f32⟩
  | 72 => ⟨S4000000x16, .f32⟩
  | 73 => ⟨S1x16, .f32⟩
  | 74 => ⟨S4000000x16, .f32⟩
  | 75 => ⟨S4000000x16, .f32⟩
  | 76 => ⟨S_, .f32⟩
  | 77 => ⟨S4000000x16, .f32⟩
  | 78 => ⟨S4000000x16, .f32⟩
  | 79 => ⟨S4000000x16, .f32⟩
  | 80 => ⟨S1x16, .f32⟩
  | 81 => ⟨S4000000x16, .f32⟩
  | 82 => ⟨S4000000x16, .f32⟩
  | 83 => ⟨S_, .f32⟩
  | 84 => ⟨S4000000x16, .f32⟩
  | 85 => ⟨S4000000x16, .f32⟩
  | 86 => ⟨S4000000x3, .f32⟩
  | 87 => ⟨S1x3, .f32⟩
  | 88 => ⟨S4000000x3, .f32⟩
  | 89 => ⟨S4000000x3, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_7 : Ref sig .tc := ⟨.hbm, 43, rfl⟩
abbrev main_v18 : Ref sig .tc := ⟨.hbm, 44, rfl⟩
abbrev main_v19 : Ref sig .tc := ⟨.hbm, 45, rfl⟩
abbrev main_cst_8 : Ref sig .tc := ⟨.hbm, 46, rfl⟩
abbrev main_v20 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_cst_10 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c : Ref sig .tc := ⟨.hbm, 69, rfl⟩
abbrev main_v33 : Ref sig .tc := ⟨.hbm, 70, rfl⟩
abbrev main_v34 : Ref sig .tc := ⟨.hbm, 71, rfl⟩
abbrev main_c_13 : Ref sig .tc := ⟨.hbm, 72, rfl⟩
abbrev main_v35 : Ref sig .tc := ⟨.hbm, 73, rfl⟩
abbrev main_v36 : Ref sig .tc := ⟨.hbm, 74, rfl⟩
abbrev main_c_14 : Ref sig .tc := ⟨.hbm, 75, rfl⟩
abbrev main_v37 : Ref sig .tc := ⟨.hbm, 76, rfl⟩
abbrev main_v38 : Ref sig .tc := ⟨.hbm, 77, rfl⟩
abbrev main_c_15 : Ref sig .tc := ⟨.hbm, 78, rfl⟩
abbrev main_v39 : Ref sig .tc := ⟨.hbm, 79, rfl⟩
abbrev main_v40 : Ref sig .tc := ⟨.hbm, 80, rfl⟩
abbrev main_c_16 : Ref sig .tc := ⟨.hbm, 81, rfl⟩
abbrev main_v41 : Ref sig .tc := ⟨.hbm, 82, rfl⟩
abbrev main_v42 : Ref sig .tc := ⟨.hbm, 83, rfl⟩
abbrev main_c_17 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_18 : Ref sig .tc := ⟨.hbm, 88, rfl⟩
abbrev main_v46 : Ref sig .tc := ⟨.hbm, 89, rfl⟩
abbrev main_v47 : Ref sig .tc := ⟨.hbm, 90, rfl⟩
abbrev main_c_19 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_c_21 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_22 : Ref sig .tc := ⟨.hbm, 106, rfl⟩
abbrev main_v60 : Ref sig .tc := ⟨.hbm, 107, rfl⟩
abbrev main_v61 : Ref sig .tc := ⟨.hbm, 108, rfl⟩
abbrev main_c_23 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_24 : Ref sig .tc := ⟨.hbm, 117, rfl⟩
abbrev main_v69 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_26 : Ref sig .tc := ⟨.hbm, 124, rfl⟩
abbrev main_v74 : Ref sig .tc := ⟨.hbm, 125, rfl⟩
abbrev main_v75 : Ref sig .tc := ⟨.hbm, 126, rfl⟩
abbrev main_c_27 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_28 : Ref sig .tc := ⟨.hbm, 135, rfl⟩
abbrev main_v83 : Ref sig .tc := ⟨.hbm, 136, rfl⟩
abbrev main_v84 : Ref sig .tc := ⟨.hbm, 137, rfl⟩
abbrev main_c_29 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_30 : Ref sig .tc := ⟨.hbm, 142, rfl⟩
abbrev main_v88 : Ref sig .tc := ⟨.hbm, 143, rfl⟩
abbrev main_v89 : Ref sig .tc := ⟨.hbm, 144, rfl⟩
abbrev main_c_31 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_32 : Ref sig .tc := ⟨.hbm, 153, rfl⟩
abbrev main_v97 : Ref sig .tc := ⟨.hbm, 154, rfl⟩
abbrev main_v98 : Ref sig .tc := ⟨.hbm, 155, rfl⟩
abbrev main_cst_33 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_34 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_35 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_call2_cst : Ref sig .tc := ⟨.hbm, 190, rfl⟩
abbrev main_call2_v0 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_call3_cst : Ref sig .tc := ⟨.hbm, 197, rfl⟩
abbrev main_call3_v0 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_call4_cst : Ref sig .tc := ⟨.hbm, 204, rfl⟩
abbrev main_call4_v0 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_call5_cst : Ref sig .tc := ⟨.hbm, 211, rfl⟩
abbrev main_call5_v0 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩

abbrev nD : Nat := 1
abbrev τ : Topo := Topo.v7x

variable {F : FTy → Type} [FloatOps F]

class Facts₀ : Prop where
  slices_S4000000x3_S4000000x2_0_0 : S4000000x3.Slices ![0, 0] S4000000x2
  bcast_S_S4000000x2 : S_.BroadcastsInDim S4000000x2 (![] : Fin 0 → Fin S4000000x2.rank)
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  bcast_S4000000_S1x4000000_1 : S4000000.BroadcastsInDim S1x4000000 (![1] : Fin 1 → Fin S1x4000000.rank)
  bcast_S1x4000000_S4x4000000_0_1 : S1x4000000.BroadcastsInDim S4x4000000 (![0, 1] : Fin 2 → Fin S4x4000000.rank)
  transposes_S4x4000000_S4000000x4_1_0 : S4x4000000.Transposes [1, 0] S4000000x4
  concatenates_S4000000x3_S4000000x4_S4000000x7_d1 : Shape.Concatenates [S4000000x3, S4000000x4] S4000000x7 1
  bcast_S16_S1x16_1 : S16.BroadcastsInDim S1x16 (![1] : Fin 1 → Fin S1x16.rank)
  bcast_S1x16_S4000000x16_0_1 : S1x16.BroadcastsInDim S4000000x16 (![0, 1] : Fin 2 → Fin S4000000x16.rank)
  bcast_S_S4000000x16 : S_.BroadcastsInDim S4000000x16 (![] : Fin 0 → Fin S4000000x16.rank)
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  gather_S4x512x512_S4000000x2_S4x4000000_0_12_n_n_12_1_411_wf : GatherDims.WF S4x512x512 S4000000x2 S4x4000000 [0] [1, 2] [] [1, 2] [] 1 ![4, 1, 1]
  dot_S4000000x7_S7x16_S4000000x16_1_0_0_1_n_n_wf : DotDims.WF S4000000x7 S7x16 S4000000x16 [1] [0] [0] [1] [] []
  dot_S4000000x16_S16x16_S4000000x16_1_0_0_1_n_n_wf : DotDims.WF S4000000x16 S16x16 S4000000x16 [1] [0] [0] [1] [] []
  dot_S4000000x16_S16x3_S4000000x3_1_0_0_1_n_n_wf : DotDims.WF S4000000x16 S16x3 S4000000x3 [1] [0] [0] [1] [] []

variable [Facts₀]

def gather_S4x512x512_S4000000x2_S4x4000000_0_12_n_n_12_1_411 : GatherDims S4x512x512 S4000000x2 S4x4000000 where
  offsetDims := [0]
  collapsedSliceDims := [1, 2]
  operandBatchingDims := []
  startIndicesBatchingDims := []
  startIndexMap := [1, 2]
  indexVectorDim := 1
  sliceSizes := ![4, 1, 1]
  wf := gather_S4x512x512_S4000000x2_S4x4000000_0_12_n_n_12_1_411_wf
def dot_S4000000x7_S7x16_S4000000x16_1_0_0_1_n_n : DotDims S4000000x7 S7x16 S4000000x16 where
  lhsContracting := [1]
  rhsContracting := [0]
  lhsNonContracting := [0]
  rhsNonContracting := [1]
  lhsBatch := []
  rhsBatch := []
  wf := dot_S4000000x7_S7x16_S4000000x16_1_0_0_1_n_n_wf
def dot_S4000000x16_S16x16_S4000000x16_1_0_0_1_n_n : DotDims S4000000x16 S16x16 S4000000x16 where
  lhsContracting := [1]
  rhsContracting := [0]
  lhsNonContracting := [0]
  rhsNonContracting := [1]
  lhsBatch := []
  rhsBatch := []
  wf := dot_S4000000x16_S16x16_S4000000x16_1_0_0_1_n_n_wf
def dot_S4000000x16_S16x3_S4000000x3_1_0_0_1_n_n : DotDims S4000000x16 S16x3 S4000000x3 where
  lhsContracting := [1]
  rhsContracting := [0]
  lhsNonContracting := [0]
  rhsNonContracting := [1]
  lhsBatch := []
  rhsBatch := []
  wf := dot_S4000000x16_S16x3_S4000000x3_1_0_0_1_n_n_wf

class Facts : Prop extends Facts₀ where

variable [Facts]
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibDenseLayer.lean ====
/-
  One dense layer of a perceptron — a matrix product with a weight matrix, plus a bias row, clamped below at zero — read
  over the extended reals as ONE function (`Cert.MatProd.denseRelu`) in the two spellings it is met in, general in the
  three extents and in the operands' float formats:

    * the kernel's: a matrix product into a zero accumulator, plus the bias ROW `[1, N]` broadcast down the rows, then a
      maximum with a splat zero (`kernel_layer`; without the clamp, entry by entry, `kernel_affine`);
    * the host's: a `dot_general`, plus the bias VECTOR `[N]` laid out as a row and broadcast down the rows (two
      `broadcast_in_dim`s), then a maximum with a broadcast zero constant (`host_layer`; without the clamp,
      `host_affine`).

  The product's dimension record is any record equal to the plain one (rows by contraction times contraction by
  columns); `asRow` lays a vector out as a one-row matrix. No finiteness is asked: both sides are the same sum, term by
  term. Imports LibMatProd, LibBroadcastTo and LibBroadcast, which must be copied with it.
-/
import proofs.«120341_j9234179686517_2_alg».proof.Proof.LibMatProd
import proofs.«120341_j9234179686517_2_alg».proof.Proof.LibBroadcastTo
import proofs.«120341_j9234179686517_2_alg».proof.Proof.LibBroadcast
import Idealize.ShloMosaic.PureOps.Contract
import Idealize.ShloMosaic.Lib.Pipeline.Value

noncomputable section

open scoped BigOperators

namespace Cert.DenseLayer

open Idealize.ShloMosaic Idealize.ShloMosaic.ValueIdx Cert.MatProd

/-- A matrix of extended reals with `M` rows and `N` columns. -/
abbrev Mat (M N : Nat) : Type := (⟨2, ![M, N]⟩ : Shape).Idx → EReal

/-- A vector of length `N` laid out as a one-row matrix. -/
def asRow {N : Nat} (b : (⟨1, ![N]⟩ : Shape).Idx → EReal) : Mat 1 N := fun i => b (ix1 (i 1))

/-- The kernel's product plus bias row: a matrix product into a zero accumulator, plus the bias row broadcast down the rows. -/
theorem kernel_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = prod a w (ix2 p q) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [matmul_plain_zero_apply, Cert.BroadcastTo.row_apply]
  rfl

/-- The kernel's dense layer is `denseRelu`. -/
theorem kernel_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    maximumf (addf (matmul d none a w (constant ⟨2, ![M, N]⟩ .f32 0x00000000#32)) (broadcastTo ⟨2, ![M, N]⟩ b hb))
        (broadcast ⟨2, ![M, N]⟩ (Scalar.ofBits (F := Ideal) .f32 0x00000000#32))
      = denseRelu a w b := by
  funext i
  obtain ⟨p, q, rfl⟩ : ∃ (p : Fin M) (q : Fin N), i = ix2 p q := ⟨i 0, i 1, eq_ix2 i⟩
  show max (addf (matmul d none a w (constant ⟨2, ![M, N]⟩ .f32 0x00000000#32)) (broadcastTo ⟨2, ![M, N]⟩ b hb) (ix2 p q)) _ = _
  rw [kernel_affine d hd a w b hb p q]
  rfl

/-- The host's product plus bias: a `dot_general`, plus the bias vector laid out as a row and broadcast down the rows. -/
theorem host_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none a w) (broadcastInDim ⟨2, ![M, N]⟩ ![0, 1] h2 (broadcastInDim ⟨2, ![1, N]⟩ ![1] h1 b)) (ix2 p q)
      = prod a w (ix2 p q) + asRow b (ix2 0 q) := by
  subst hd
  show FloatOps.dotGeneral (DotDims.plain M K N) none .single a w (ix2 p q)
      + broadcastInDim ⟨2, ![M, N]⟩ ![0, 1] h2 (broadcastInDim ⟨2, ![1, N]⟩ ![1] h1 b) (ix2 p q) = _
  rw [dotGeneral_plain_apply, Cert.Layout.rows_of_vec_apply]
  rfl

/-- The host's dense layer is `denseRelu`. -/
theorem host_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = denseRelu a w (asRow b) := by
  funext i
  obtain ⟨p, q, rfl⟩ : ∃ (p : Fin M) (q : Fin N), i = ix2 p q := ⟨i 0, i 1, eq_ix2 i⟩
  show max (addf (Host.dotGeneral d none a w) (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [host_affine d hd a w b h1 h2 p q, Cert.Layout.splat_apply]
  rfl

end Cert.DenseLayer

end
-- ==== Proof.Mlp.lean ====
/-
  A five-layer perceptron applied to the rows of a matrix, over the extended reals.

  `net A W1 B1 … W5 B5` sends a matrix `A` with `M` rows of 7 features to the matrix with `M` rows of 3 outputs:
  four dense layers (a product with a weight matrix, plus a bias row, clamped below at zero) and a last product plus a
  bias row. Every row of the result depends on the same row of `A` only (`net_rows`), so the network of a block of rows
  is that block of rows of the network: what a kernel that tiles the rows computes per tile.

  One dense layer in the kernel's spelling and in the host's is read as the one function `denseRelu` elsewhere
  (the dense-layer lemma file this module imports and re-exports).
-/
import proofs.«120341_j9234179686517_2_alg».proof.Proof.LibDenseLayer

noncomputable section

open scoped BigOperators

namespace Cert.Mlp

open Idealize.ShloMosaic Idealize.ShloMosaic.ValueIdx Cert.MatProd

export Cert.DenseLayer (Mat asRow kernel_affine kernel_layer host_affine host_layer)

/-- The network on a matrix of `M` input rows. -/
def net {M : Nat} (A : Mat M 7) (W1 : Mat 7 16) (B1 : Mat 1 16) (W2 : Mat 16 16) (B2 : Mat 1 16) (W3 : Mat 16 16)
    (B3 : Mat 1 16) (W4 : Mat 16 16) (B4 : Mat 1 16) (W5 : Mat 16 3) (B5 : Mat 1 3) : Mat M 3 :=
  fun i => prod (denseRelu (denseRelu (denseRelu (denseRelu A W1 B1) W2 B2) W3 B3) W4 B4) W5 i + B5 (ix2 0 (i 1))

/-- ROW BY ROW: if row `p` of `A'` is row `r` of `A`, then row `p` of the network of `A'` is row `r` of the network of `A`. -/
theorem net_rows {M M' : Nat} (A : Mat M 7) (A' : Mat M' 7) (W1 : Mat 7 16) (B1 : Mat 1 16) (W2 : Mat 16 16) (B2 : Mat 1 16)
    (W3 : Mat 16 16) (B3 : Mat 1 16) (W4 : Mat 16 16) (B4 : Mat 1 16) (W5 : Mat 16 3) (B5 : Mat 1 3)
    (p : Fin M') (r : Fin M) (q : Fin 3) (h : ∀ k : Fin 7, A' (ix2 p k) = A (ix2 r k)) :
    net A' W1 B1 W2 B2 W3 B3 W4 B4 W5 B5 (ix2 p q) = net A W1 B1 W2 B2 W3 B3 W4 B4 W5 B5 (ix2 r q) := by
  have h1 : ∀ k : Fin 16, denseRelu A' W1 B1 (ix2 p k) = denseRelu A W1 B1 (ix2 r k) := fun k =>
    denseRelu_block_eq A W1 B1 A' W1 B1 p k (ix2 r k) h (fun _ => rfl) rfl
  have h2 : ∀ k : Fin 16, denseRelu (denseRelu A' W1 B1) W2 B2 (ix2 p k) = denseRelu (denseRelu A W1 B1) W2 B2 (ix2 r k) :=
    fun k => denseRelu_block_eq _ W2 B2 _ W2 B2 p k (ix2 r k) h1 (fun _ => rfl) rfl
  have h3 : ∀ k : Fin 16, denseRelu (denseRelu (denseRelu A' W1 B1) W2 B2) W3 B3 (ix2 p k)
      = denseRelu (denseRelu (denseRelu A W1 B1) W2 B2) W3 B3 (ix2 r k) :=
    fun k => denseRelu_block_eq _ W3 B3 _ W3 B3 p k (ix2 r k) h2 (fun _ => rfl) rfl
  have h4 : ∀ k : Fin 16, denseRelu (denseRelu (denseRelu (denseRelu A' W1 B1) W2 B2) W3 B3) W4 B4 (ix2 p k)
      = denseRelu (denseRelu (denseRelu (denseRelu A W1 B1) W2 B2) W3 B3) W4 B4 (ix2 r k) :=
    fun k => denseRelu_block_eq _ W4 B4 _ W4 B4 p k (ix2 r k) h3 (fun _ => rfl) rfl
  show prod _ W5 (ix2 p q) + B5 (ix2 0 q) = prod _ W5 (ix2 r q) + B5 (ix2 0 q)
  rw [prod_block_eq _ W5 _ W5 p q (ix2 r q) h4 (fun _ => rfl)]

end Cert.Mlp

end
-- ==== Proof.KernelBody.lean ====
/-
  What the kernel body computes from its blocks, over the extended reals: the five-layer perceptron of the block of rows.

  The body loads a block of 8000 rows of 7 features, the five weight matrices and the five bias rows, and stores
  `relu(relu(relu(relu(x·W1 + b1)·W2 + b2)·W3 + b3)·W4 + b4)·W5 + b5`: each product is a matrix product into a zero
  accumulator, each bias a row broadcast down the rows, each clamp a maximum with zero. The casts of the activations to a
  narrower float format between the layers are the identity over the extended reals, and a cast of a vector to its own
  shape is the identity. So the stored block is `Mlp.net` of the loaded block.
-/
import proofs.«120341_j9234179686517_2_alg».proof.Proof.Gen.KernelIdeal.Skeleton
import proofs.«120341_j9234179686517_2_alg».proof.Proof.Mlp

noncomputable section

namespace Cert.KernelIdeal.Body

open Cert.KernelIdeal Cert.KernelIdeal.Gen Idealize.ShloMosaic Idealize.ShloMosaic.ValueIdx Cert.MatProd Cert.Mlp

/-- The three products of the body are plain products: rows by contraction times contraction by columns. -/
theorem dims_7_16 : dot_S8000x7_S7x16_S8000x16_1_0_0_1_n_n = DotDims.plain 8000 7 16 := rfl
theorem dims_16_16 : dot_S8000x16_S16x16_S8000x16_1_0_0_1_n_n = DotDims.plain 8000 16 16 := rfl
theorem dims_16_3 : dot_S8000x16_S16x3_S8000x3_1_0_0_1_n_n = DotDims.plain 8000 16 3 := rfl

/-- A change to a narrower float format is the identity over the extended reals. -/
theorem narrow_id {s : Shape} {φ ψ : FTy} (v : FVec Ideal s φ) (h : ψ.bits < φ.bits) : truncf ψ v h = v := rfl

/-- THE BODY'S STORED BLOCK is the network of its loaded block of rows. -/
theorem stored_eq (x0 : Vec Ideal S8000x7 .bf16) (x1 : Vec Ideal S7x16 .bf16) (x2 : Vec Ideal S1x16 .f32)
    (x3 : Vec Ideal S16x16 .bf16) (x4 : Vec Ideal S1x16 .f32) (x5 : Vec Ideal S16x16 .bf16) (x6 : Vec Ideal S1x16 .f32)
    (x7 : Vec Ideal S16x16 .bf16) (x8 : Vec Ideal S1x16 .f32) (x9 : Vec Ideal S16x3 .bf16) (x10 : Vec Ideal S1x3 .f32) :
    k0_pay1 (F := Ideal) (k0_pay2 (F := Ideal) x0 x1 x2 x3 x4 x5 x6 x7) x8 x9 x10
      = net x0 x1 x2 x3 x4 x5 x6 x7 x8 x9 x10 := by
  unfold k0_pay1 k0_pay2
  simp only [shapeCast_self, narrow_id, kernel_layer _ dims_7_16, kernel_layer _ dims_16_16]
  funext i
  obtain ⟨p, q, rfl⟩ : ∃ (p : Fin 8000) (q : Fin 3), i = ix2 p q := ⟨i 0, i 1, eq_ix2 i⟩
  rw [kernel_affine _ dims_16_3]
  rfl

/-- ROW BY ROW against a whole array: if row `p` of the loaded block of rows is row `r` of a matrix `A`, and the other
    loaded blocks are the weight matrices and the bias rows, then row `p` of the stored block is row `r` of the network
    of `A`. -/
theorem stored_rows {M : Nat} (A : Mat M 7) (W1 : Mat 7 16) (B1 : Mat 1 16) (W2 : Mat 16 16) (B2 : Mat 1 16) (W3 : Mat 16 16)
    (B3 : Mat 1 16) (W4 : Mat 16 16) (B4 : Mat 1 16) (W5 : Mat 16 3) (B5 : Mat 1 3)
    (x0 : Vec Ideal S8000x7 .bf16) (x1 : Vec Ideal S7x16 .bf16) (x2 : Vec Ideal S1x16 .f32)
    (x3 : Vec Ideal S16x16 .bf16) (x4 : Vec Ideal S1x16 .f32) (x5 : Vec Ideal S16x16 .bf16) (x6 : Vec Ideal S1x16 .f32)
    (x7 : Vec Ideal S16x16 .bf16) (x8 : Vec Ideal S1x16 .f32) (x9 : Vec Ideal S16x3 .bf16) (x10 : Vec Ideal S1x3 .f32)
    (p : Fin 8000) (r : Fin M) (q : Fin 3) (h0 : ∀ k : Fin 7, x0 (ix2 p k) = A (ix2 r k))
    (h1 : x1 = W1) (h2 : x2 = B1) (h3 : x3 = W2) (h4 : x4 = B2) (h5 : x5 = W3) (h6 : x6 = B3) (h7 : x7 = W4) (h8 : x8 = B4)
    (h9 : x9 = W5) (h10 : x10 = B5) :
    k0_pay1 (F := Ideal) (k0_pay2 (F := Ideal) x0 x1 x2 x3 x4 x5 x6 x7) x8 x9 x10 (ix2 p q)
      = net A W1 B1 W2 B2 W3 B3 W4 B4 W5 B5 (ix2 r q) := by
  subst h1 h2 h3 h4 h5 h6 h7 h8 h9 h10
  rw [stored_eq]
  exact net_rows A x0 x1 x2 x3 x4 x5 x6 x7 x8 x9 x10 p r q h0

end Cert.KernelIdeal.Body

end
-- ==== Proof.InputWeights.lean ====
/-
  The weight arrays the kernel's windows read, as the region finds them: each is an argument of @main in a narrower
  float format, written by one host operation that no later one overwrites.
-/
import proofs.«120341_j9234179686517_2_alg».proof.Proof.Gen.KernelIdeal.Frame
import Idealize.ShloMosaic.Lib.StableHlo.Run
import Idealize.ShloMosaic.PureOps.Ideal

noncomputable section

namespace Cert.KernelIdeal.Inputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 80000000 in
theorem w1_entry (c : Dev nD) : (V m c main_v127 : S7x16.Idx → EReal) = truncf (F := Ideal) (s := S7x16) (φ := .f32) .bf16 (m ((c : Thread nD τ).loc main_arg2)) bitsLt_bf16_f32 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem w2_entry (c : Dev nD) : (V m c main_v128 : S16x16.Idx → EReal) = truncf (F := Ideal) (s := S16x16) (φ := .f32) .bf16 (m ((c : Thread nD τ).loc main_arg4)) bitsLt_bf16_f32 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem w3_entry (c : Dev nD) : (V m c main_v129 : S16x16.Idx → EReal) = truncf (F := Ideal) (s := S16x16) (φ := .f32) .bf16 (m ((c : Thread nD τ).loc main_arg6)) bitsLt_bf16_f32 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem w4_entry (c : Dev nD) : (V m c main_v130 : S16x16.Idx → EReal) = truncf (F := Ideal) (s := S16x16) (φ := .f32) .bf16 (m ((c : Thread nD τ).loc main_arg8)) bitsLt_bf16_f32 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem w5_entry (c : Dev nD) : (V m c main_v131 : S16x3.Idx → EReal) = truncf (F := Ideal) (s := S16x3) (φ := .f32) .bf16 (m ((c : Thread nD τ).loc main_arg10)) bitsLt_bf16_f32 := by
  dsimp only [V]
  simp only [hostOps0, hostOps0_1, hostOps0_2, hostOps0_3, hostOps0_4, List.flatten_cons, List.flatten_nil, List.append_nil, List.cons_append, List.nil_append]
  after_results_simp <;> rfl

end Cert.KernelIdeal.Inputs

end
-- ==== Proof.InputBiases.lean ====
/-
  The bias arrays the kernel's windows read, as the region finds them: each is a bias vector of @main reshaped to a
  one-row matrix by one host operation that no later one overwrites.
-/
import proofs.«120341_j9234179686517_2_alg».proof.Proof.Gen.KernelIdeal.Frame
import Idealize.ShloMosaic.Lib.StableHlo.Run
import Idealize.ShloMosaic.PureOps.Ideal

noncomputable section

namespace Cert.KernelIdeal.Inputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 80000000 in
theorem b1_entry (c : Dev nD) : (V m c main_v132 : S1x16.Idx → EReal) = shapeCast S1x16 (m ((c : Thread nD τ).loc main_arg3)) shapeCasts_S16_S1x16 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem b2_entry (c : Dev nD) : (V m c main_v133 : S1x16.Idx → EReal) = shapeCast S1x16 (m ((c : Thread nD τ).loc main_arg5)) shapeCasts_S16_S1x16 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem b3_entry (c : Dev nD) : (V m c main_v134 : S1x16.Idx → EReal) = shapeCast S1x16 (m ((c : Thread nD τ).loc main_arg7)) shapeCasts_S16_S1x16 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem b4_entry (c : Dev nD) : (V m c main_v135 : S1x16.Idx → EReal) = shapeCast S1x16 (m ((c : Thread nD τ).loc main_arg9)) shapeCasts_S16_S1x16 := by
  dsimp only [V]
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 80000000 in
theorem b5_entry (c : Dev nD) : (V m c main_v136 : S1x3.Idx → EReal) = shapeCast S1x3 (m ((c : Thread nD τ).loc main_arg11)) shapeCasts_S3_S1x3 := by
  dsimp only [V]
  simp only [hostOps0, hostOps0_1, hostOps0_2, hostOps0_3, hostOps0_4, List.flatten_cons, List.flatten_nil, List.append_nil, List.cons_append, List.nil_append]
  after_results_simp <;> rfl

end Cert.KernelIdeal.Inputs

end
-- ==== Proof.KernelWhole.lean ====
/-
  The kernel's result array after the run, as one function of @main's arguments.

  The grid has 500 points; point `t` reads rows `8000 t … 8000 t + 7999` of the array of input rows and the whole of
  every weight and bias array (their index maps are constant), and writes back rows `8000 t … 8000 t + 7999` of the
  result. The body stores the network of its block of rows (`Body.stored_rows`), and the network acts row by row, so
  what point `t` writes back is block `t` of the network of ALL the rows (`written_back`). The 500 blocks cover the
  4,000,000 rows (`covered`), so the result array ends holding the network of all the rows (`whole`): `result`.
  The array of input rows is taken as the region finds it; what the host operations before the region put there is
  read elsewhere.
-/
import proofs.«120341_j9234179686517_2_alg».proof.Proof.Gen.KernelIdeal.Value
import proofs.«120341_j9234179686517_2_alg».proof.Proof.KernelBody
import proofs.«120341_j9234179686517_2_alg».proof.Proof.InputWeights
import proofs.«120341_j9234179686517_2_alg».proof.Proof.InputBiases
import Idealize.ShloMosaic.Lib.Pipeline.Value

noncomputable section

namespace Cert.KernelIdeal.Whole

open Cert.KernelIdeal Cert.KernelIdeal.Gen Cert.KernelIdeal.Value Cert.KernelIdeal.Inputs
open Idealize.ShloMosaic Idealize.ShloMosaic.TcCoe Idealize.SL.Sem Idealize.ShloMosaic.ValueIdx Cert.MatProd Cert.Mlp
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- A vector reshaped to a one-row matrix is the vector laid out as a row. -/
theorem row_cast {N : Nat} (b : (⟨1, ![N]⟩ : Shape).Idx → EReal) (h : (⟨1, ![N]⟩ : Shape).ShapeCasts ⟨2, ![1, N]⟩) :
    shapeCast ⟨2, ![1, N]⟩ b h = asRow b := by
  funext i
  obtain ⟨z, k, rfl⟩ : ∃ (z : Fin 1) (k : Fin N), i = ix2 z k := ⟨i 0, i 1, eq_ix2 i⟩
  obtain rfl : z = 0 := Subsingleton.elim _ _
  exact Cert.Layout.row_of_vec_apply b h k

/-! ## The index maps, decided over the 500 points -/

/-- The rows window and the result window move down one block of 8000 rows per point. -/
theorem rows_at : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem out_at : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- Every weight and bias window stays at block (0, 0). -/
theorem at_origin_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem at_origin_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem at_origin_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem at_origin_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem at_origin_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem at_origin_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem at_origin_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem at_origin_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem at_origin_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem at_origin_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-! ## The blocks the body loads -/

/-- Entry `(p, k)` of the rows window's block at point `t` is entry `(8000 t + p, k)` of its array. -/
theorem rows_block (c : Dev nD) (t : Fin cfg0.N) (p : Fin 8000) (k : Fin 7) (r : Fin 4000000) (hr : r.val = 8000 * t.val + p.val) :
    (iblk m c 0 t : Vec Ideal S8000x7 .bf16) (ix2 p k) = (V m c main_v126 : S4000000x7.Idx → EReal) (ix2 r k) := by
  obtain ⟨e0, e1⟩ := rows_at t
  unfold iblk
  rw [View.read_apply]
  show V m c main_v126 _ = V m c main_v126 _
  refine congrArg (V m c main_v126 : S4000000x7.Idx → EReal) ?_
  funext a
  apply Fin.ext
  match a with
  | ⟨0, _⟩ => show win0_0.index t (0 : Fin 2) * 8000 + 1 * p.val = r.val; rw [e0, hr]; omega
  | ⟨1, _⟩ => show win0_0.index t (1 : Fin 2) * 7 + 1 * k.val = k.val; rw [e1]; omega

/-- Window 1's block at every point is its whole array. -/
theorem whole_block_1 (c : Dev nD) (t : Fin cfg0.N) :
    (iblk m c 1 t : Vec Ideal S7x16 .bf16) = (V m c main_v127 : S7x16.Idx → EReal) := by
  obtain ⟨e0, e1⟩ := at_origin_1 t
  funext y
  unfold iblk
  rw [View.read_apply]
  show V m c main_v127 _ = V m c main_v127 _
  refine congrArg (V m c main_v127 : S7x16.Idx → EReal) ?_
  funext a
  apply Fin.ext
  match a with
  | ⟨0, _⟩ => show win0_1.index t (0 : Fin 2) * 7 + 1 * (y 0).val = (y 0).val; rw [e0]; omega
  | ⟨1, _⟩ => show win0_1.index t (1 : Fin 2) * 16 + 1 * (y 1).val = (y 1).val; rw [e1]; omega

/-- Window 2's block at every point is its whole array. -/
theorem whole_block_2 (c : Dev nD) (t : Fin cfg0.N) :
    (iblk m c 2 t : Vec Ideal S1x16 .f32) = (V m c main_v132 : S1x16.Idx → EReal) := by
  obtain ⟨e0, e1⟩ := at_origin_2 t
  funext y
  unfold iblk
  rw [View.read_apply]
  show V m c main_v132 _ = V m c main_v132 _
  refine congrArg (V m c main_v132 : S1x16.Idx → EReal) ?_
  funext a
  apply Fin.ext
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega

/-- Window 3's block at every point is its whole array. -/
theorem whole_block_3 (c : Dev nD) (t : Fin cfg0.N) :
    (iblk m c 3 t : Vec Ideal S16x16 .bf16) = (V m c main_v128 : S16x16.Idx → EReal) := by
  obtain ⟨e0, e1⟩ := at_origin_3 t
  funext y
  unfold iblk
  rw [View.read_apply]
  show V m c main_v128 _ = V m c main_v128 _
  refine congrArg (V m c main_v128 : S16x16.Idx → EReal) ?_
  funext a
  apply Fin.ext
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega

/-- Window 4's block at every point is its whole array. -/
theorem whole_block_4 (c : Dev nD) (t : Fin cfg0.N) :
    (iblk m c 4 t : Vec Ideal S1x16 .f32) = (V m c main_v133 : S1x16.Idx → EReal) := by
  obtain ⟨e0, e1⟩ := at_origin_4 t
  funext y
  unfold iblk
  rw [View.read_apply]
  show V m c main_v133 _ = V m c main_v133 _
  refine congrArg (V m c main_v133 : S1x16.Idx → EReal) ?_
  funext a
  apply Fin.ext
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

/-- Window 5's block at every point is its whole array. -/
theorem whole_block_5 (c : Dev nD) (t : Fin cfg0.N) :
    (iblk m c 5 t : Vec Ideal S16x16 .bf16) = (V m c main_v129 : S16x16.Idx → EReal) := by
  obtain ⟨e0, e1⟩ := at_origin_5 t
  funext y
  unfold iblk
  rw [View.read_apply]
  show V m c main_v129 _ = V m c main_v129 _
  refine congrArg (V m c main_v129 : S16x16.Idx → EReal) ?_
  funext a
  apply Fin.ext
  match a with
  | ⟨0, _⟩ => show win0_5.index t (0 : Fin 2) * 16 + 1 * (y 0).val = (y 0).val; rw [e0]; omega
  | ⟨1, _⟩ => show win0_5.index t (1 : Fin 2) * 16 + 1 * (y 1).val = (y 1).val; rw [e1]; omega

/-- Window 6's block at every point is its whole array. -/
theorem whole_block_6 (c : Dev nD) (t : Fin cfg0.N) :
    (iblk m c 6 t : Vec Ideal S1x16 .f32) = (V m c main_v134 : S1x16.Idx → EReal) := by
  obtain ⟨e0, e1⟩ := at_origin_6 t
  funext y
  unfold iblk
  rw [View.read_apply]
  show V m c main_v134 _ = V m c main_v134 _
  refine congrArg (V m c main_v134 : S1x16.Idx → EReal) ?_
  funext a
  apply Fin.ext
  match a with
  | ⟨0, _⟩ => show win0_6.index t (0 : Fin 2) * 1 + 1 * (y 0).val = (y 0).val; rw [e0]; omega
  | ⟨1, _⟩ => show win0_6.index t (1 : Fin 2) * 16 + 1 * (y 1).val = (y 1).val; rw [e1]; omega

/-- Window 7's block at every point is its whole array. -/
theorem whole_block_7 (c : Dev nD) (t : Fin cfg0.N) :
    (iblk m c 7 t : Vec Ideal S16x16 .bf16) = (V m c main_v130 : S16x16.Idx → EReal) := by
  obtain ⟨e0, e1⟩ := at_origin_7 t
  funext y
  unfold iblk
  rw [View.read_apply]
  show V m c main_v130 _ = V m c main_v130 _
  refine congrArg (V m c main_v130 : S16x16.Idx → EReal) ?_
  funext a
  apply Fin.ext
  match a with
  | ⟨0, _⟩ => show win0_7.index t (0 : Fin 2) * 16 + 1 * (y 0).val = (y 0).val; rw [e0]; omega
  | ⟨1, _⟩ => show win0_7.index t (1 : Fin 2) * 16 + 1 * (y 1).val = (y 1).val; rw [e1]; omega

/-- Window 8's block at every point is its whole array. -/
theorem whole_block_8 (c : Dev nD) (t : Fin cfg0.N) :
    (iblk m c 8 t : Vec Ideal S1x16 .f32) = (V m c main_v135 : S1x16.Idx → EReal) := by
  obtain ⟨e0, e1⟩ := at_origin_8 t
  funext y
  unfold iblk
  rw [View.read_apply]
  show V m c main_v135 _ = V m c main_v135 _
  refine congrArg (V m c main_v135 : S1x16.Idx → EReal) ?_
  funext a
  apply Fin.ext
  match a with
  | ⟨0, _⟩ => show win0_8.index t (0 : Fin 2) * 1 + 1 * (y 0).val = (y 0).val; rw [e0]; omega
  | ⟨1, _⟩ => show win0_8.index t (1 : Fin 2) * 16 + 1 * (y 1).val = (y 1).val; rw [e1]; omega

/-- Window 9's block at every point is its whole array. -/
theorem whole_block_9 (c : Dev nD) (t : Fin cfg0.N) :
    (iblk m c 9 t : Vec Ideal S16x3 .bf16) = (V m c main_v131 : S16x3.Idx → EReal) := by
  obtain ⟨e0, e1⟩ := at_origin_9 t
  funext y
  unfold iblk
  rw [View.read_apply]
  show V m c main_v131 _ = V m c main_v131 _
  refine congrArg (V m c main_v131 : S16x3.Idx → EReal) ?_
  funext a
  apply Fin.ext
  match a with
  | ⟨0, _⟩ => show win0_9.index t (0 : Fin 2) * 16 + 1 * (y 0).val = (y 0).val; rw [e0]; omega
  | ⟨1, _⟩ => show win0_9.index t (1 : Fin 2) * 3 + 1 * (y 1).val = (y 1).val; rw [e1]; omega

/-- Window 10's block at every point is its whole array. -/
theorem whole_block_10 (c : Dev nD) (t : Fin cfg0.N) :
    (iblk m c 10 t : Vec Ideal S1x3 .f32) = (V m c main_v136 : S1x3.Idx → EReal) := by
  obtain ⟨e0, e1⟩ := at_origin_10 t
  funext y
  unfold iblk
  rw [View.read_apply]
  show V m c main_v136 _ = V m c main_v136 _
  refine congrArg (V m c main_v136 : S1x3.Idx → EReal) ?_
  funext a
  apply Fin.ext
  match a with
  | ⟨0, _⟩ => show win0_10.index t (0 : Fin 2) * 1 + 1 * (y 0).val = (y 0).val; rw [e0]; omega
  | ⟨1, _⟩ => show win0_10.index t (1 : Fin 2) * 3 + 1 * (y 1).val = (y 1).val; rw [e1]; omega

/-- So each weight block is the weight argument and each bias block the bias argument laid out as a row. -/
theorem block_1 (c : Dev nD) (t : Fin cfg0.N) : (iblk m c 1 t : Vec Ideal S7x16 .bf16) = ((m ((c : Thread nD τ).loc main_arg2)) : S7x16.Idx → EReal) :=
  (whole_block_1 m c t).trans ((w1_entry m c).trans (Body.narrow_id _ _))
theorem block_2 (c : Dev nD) (t : Fin cfg0.N) : (iblk m c 2 t : Vec Ideal S1x16 .f32) = asRow ((m ((c : Thread nD τ).loc main_arg3)) : S16.Idx → EReal) :=
  (whole_block_2 m c t).trans ((b1_entry m c).trans (row_cast _ _))
theorem block_3 (c : Dev nD) (t : Fin cfg0.N) : (iblk m c 3 t : Vec Ideal S16x16 .bf16) = ((m ((c : Thread nD τ).loc main_arg4)) : S16x16.Idx → EReal) :=
  (whole_block_3 m c t).trans ((w2_entry m c).trans (Body.narrow_id _ _))
theorem block_4 (c : Dev nD) (t : Fin cfg0.N) : (iblk m c 4 t : Vec Ideal S1x16 .f32) = asRow ((m ((c : Thread nD τ).loc main_arg5)) : S16.Idx → EReal) :=
  (whole_block_4 m c t).trans ((b2_entry m c).trans (row_cast _ _))
theorem block_5 (c : Dev nD) (t : Fin cfg0.N) : (iblk m c 5 t : Vec Ideal S16x16 .bf16) = ((m ((c : Thread nD τ).loc main_arg6)) : S16x16.Idx → EReal) :=
  (whole_block_5 m c t).trans ((w3_entry m c).trans (Body.narrow_id _ _))
theorem block_6 (c : Dev nD) (t : Fin cfg0.N) : (iblk m c 6 t : Vec Ideal S1x16 .f32) = asRow ((m ((c : Thread nD τ).loc main_arg7)) : S16.Idx → EReal) :=
  (whole_block_6 m c t).trans ((b3_entry m c).trans (row_cast _ _))
theorem block_7 (c : Dev nD) (t : Fin cfg0.N) : (iblk m c 7 t : Vec Ideal S16x16 .bf16) = ((m ((c : Thread nD τ).loc main_arg8)) : S16x16.Idx → EReal) :=
  (whole_block_7 m c t).trans ((w4_entry m c).trans (Body.narrow_id _ _))
theorem block_8 (c : Dev nD) (t : Fin cfg0.N) : (iblk m c 8 t : Vec Ideal S1x16 .f32) = asRow ((m ((c : Thread nD τ).loc main_arg9)) : S16.Idx → EReal) :=
  (whole_block_8 m c t).trans ((b4_entry m c).trans (row_cast _ _))
theorem block_9 (c : Dev nD) (t : Fin cfg0.N) : (iblk m c 9 t : Vec Ideal S16x3 .bf16) = ((m ((c : Thread nD τ).loc main_arg10)) : S16x3.Idx → EReal) :=
  (whole_block_9 m c t).trans ((w5_entry m c).trans (Body.narrow_id _ _))
theorem block_10 (c : Dev nD) (t : Fin cfg0.N) : (iblk m c 10 t : Vec Ideal S1x3 .f32) = asRow ((m ((c : Thread nD τ).loc main_arg11)) : S3.Idx → EReal) :=
  (whole_block_10 m c t).trans ((b5_entry m c).trans (row_cast _ _))

/-! ## The result -/

/-- The network of all the input rows as the region finds them, with @main's weights and biases. -/
def result (c : Dev nD) : S4000000x3.Idx → EReal :=
  net (V m c main_v126 : S4000000x7.Idx → EReal)
    ((m ((c : Thread nD τ).loc main_arg2)) : S7x16.Idx → EReal) (asRow ((m ((c : Thread nD τ).loc main_arg3)) : S16.Idx → EReal))
    ((m ((c : Thread nD τ).loc main_arg4)) : S16x16.Idx → EReal) (asRow ((m ((c : Thread nD τ).loc main_arg5)) : S16.Idx → EReal))
    ((m ((c : Thread nD τ).loc main_arg6)) : S16x16.Idx → EReal) (asRow ((m ((c : Thread nD τ).loc main_arg7)) : S16.Idx → EReal))
    ((m ((c : Thread nD τ).loc main_arg8)) : S16x16.Idx → EReal) (asRow ((m ((c : Thread nD τ).loc main_arg9)) : S16.Idx → EReal))
    ((m ((c : Thread nD τ).loc main_arg10)) : S16x3.Idx → EReal) (asRow ((m ((c : Thread nD τ).loc main_arg11)) : S3.Idx → EReal))

/-- WHAT POINT `t` WRITES BACK is block `t` of `result`. -/
theorem written_back (c : Dev nD) (t : Fin cfg0.N) :
    (dats m 0 c).flushed 11 t = ((cfg0.win 11).blk t).view.read (Elt Ideal) (result m c) := by
  rw [flushed11]
  unfold out0_11
  rw [View.canon_unit_zero zero_offsets]
  simp only [View.ld_unit_zero (S := S8000x7) zero_offsets, View.ld_unit_zero (S := S7x16) zero_offsets,
    View.ld_unit_zero (S := S1x16) zero_offsets, View.ld_unit_zero (S := S16x16) zero_offsets,
    View.ld_unit_zero (S := S16x3) zero_offsets, View.ld_unit_zero (S := S1x3) zero_offsets]
  obtain ⟨e0, e1⟩ := out_at t
  have hN : cfg0.N = 500 := N_0
  refine funext fun (j : S8000x3.Idx) => ?_
  obtain ⟨p, q, rfl⟩ : ∃ (p : Fin 8000) (q : Fin 3), j = ix2 p q := ⟨j 0, j 1, eq_ix2 j⟩
  have hp : 8000 * t.val + p.val < 4000000 := by have := t.isLt; have := p.isLt; omega
  have hemb : ((cfg0.win 11).blk t).view.emb (ix2 p q) = (ix2 (⟨8000 * t.val + p.val, hp⟩ : Fin 4000000) q : S4000000x3.Idx) := by
    funext a
    apply Fin.ext
    match a with
    | ⟨0, _⟩ => show win0_11.index t (0 : Fin 2) * 8000 + 1 * p.val = 8000 * t.val + p.val; rw [e0]; omega
    | ⟨1, _⟩ => show win0_11.index t (1 : Fin 2) * 3 + 1 * q.val = q.val; rw [e1]; omega
  rw [View.read_apply, hemb]
  unfold result
  show k0_pay1 (F := Ideal) (k0_pay2 (F := Ideal) (iblk m c 0 t) (iblk m c 1 t) (iblk m c 2 t) (iblk m c 3 t) (iblk m c 4 t) (iblk m c 5 t) (iblk m c 6 t) (iblk m c 7 t)) (iblk m c 8 t) (iblk m c 9 t) (iblk m c 10 t) (ix2 p q) = _
  exact Body.stored_rows _ _ _ _ _ _ _ _ _ _ _ (iblk m c 0 t) (iblk m c 1 t) (iblk m c 2 t) (iblk m c 3 t) (iblk m c 4 t)
    (iblk m c 5 t) (iblk m c 6 t) (iblk m c 7 t) (iblk m c 8 t) (iblk m c 9 t) (iblk m c 10 t) p ⟨8000 * t.val + p.val, hp⟩ q
    (fun k => rows_block m c t p k ⟨8000 * t.val + p.val, hp⟩ rfl)
    (block_1 m c t) (block_2 m c t) (block_3 m c t) (block_4 m c t) (block_5 m c t) (block_6 m c t) (block_7 m c t)
    (block_8 m c t) (block_9 m c t) (block_10 m c t)

/-- An index of the result array is in point `t`'s block iff each coordinate is in the block's range on its axis. -/
theorem mem_block (t : Fin cfg0.N) (i : S4000000x3.Idx) :
    i ∈ ((cfg0.win 11).blk t).view.set ↔ ∀ a : Fin 2, win0_11.index t a * S8000x3.size a ≤ (i a).val ∧ (i a).val < win0_11.index t a * S8000x3.size a + S8000x3.size a := by
  show i ∈ ((View.whole main_v137).slice (win0_11.rect t)).set ↔ _
  rw [View.set_slice_whole, Rect.mem_set_unit]
  exact Iff.rfl

/-- EVERY ROW IS IN SOME POINT'S BLOCK: row `r` in the block of point `r / 8000`. -/
theorem covered (i : S4000000x3.Idx) : ∃ t : Fin cfg0.N, (cfg0.win 11).flush t = true ∧ i ∈ ((cfg0.win 11).blk t).view.set := by
  have hN : cfg0.N = 500 := N_0
  have hi0 : (i 0).val < 4000000 := (i 0).isLt
  have hi1 : (i 1).val < 3 := (i 1).isLt
  refine ⟨⟨(i 0).val / 8000, by omega⟩, flush0_11 _, ?_⟩
  obtain ⟨e0, e1⟩ := out_at ⟨(i 0).val / 8000, by omega⟩
  rw [mem_block]
  intro a
  match a with
  | ⟨0, _⟩ =>
    show win0_11.index _ (0 : Fin 2) * 8000 ≤ (i 0).val ∧ (i 0).val < win0_11.index _ (0 : Fin 2) * 8000 + 8000
    rw [e0]; show (i 0).val / 8000 * 8000 ≤ (i 0).val ∧ (i 0).val < (i 0).val / 8000 * 8000 + 8000; omega
  | ⟨1, _⟩ =>
    show win0_11.index _ (1 : Fin 2) * 3 ≤ (i 1).val ∧ (i 1).val < win0_11.index _ (1 : Fin 2) * 3 + 3
    rw [e1]; omega

/-- THE RESULT ARRAY after the run is `result`. -/
theorem whole (c : Dev nD) : (dats m 0 c).arrAt 11 cfg0.N = result m c :=
  (dats m 0 c).arrAt_eq_of_cover 11 (result m c) (fun t _ => written_back m c t) covered

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v137) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (whole m c), (h c).2⟩) (run_blocks m ρ)

end Cert.KernelIdeal.Whole

end
-- ==== Proof.InputRows.lean ====
/-
  The array of input rows the kernel's first window reads, as the region finds it.

  Before the region @main samples the feature map bilinearly at the first two coordinates of each point (clamped
  coordinates, four gathered neighbours, weights from the fractional parts), joins the three coordinates and the four
  sampled features into rows of seven, and changes the float format. The reference program applies the same operations
  in the same order to the same two arguments; its stage `val_main_v125` names their composition as one function of
  the point array and the feature map. So the rows the kernel reads are that function of the two arguments, up to the
  change of format (the identity over the extended reals).
-/
import proofs.«120341_j9234179686517_2_alg».proof.Proof.Gen.KernelIdeal.Frame
import proofs.«120341_j9234179686517_2_alg».proof.Proof.RefReadP
import Idealize.ShloMosaic.Lib.StableHlo.Run
import Idealize.ShloMosaic.PureOps.Ideal

noncomputable section

namespace Cert.KernelIdeal.Inputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 80000000 in
/-- The first window's array is the sampled-and-joined rows of the two arguments, in the narrower format. -/
theorem rows_entry (c : Dev nD) :
    (V m c main_v126 : S4000000x7.Idx → EReal)
      = truncf (F := Ideal) (s := S4000000x7) (φ := .f32) .bf16 (Cert.ReferenceIdeal.ReadP.val_main_v125 (F := Ideal) (m ((c : Thread nD τ).loc main_arg0)) (m ((c : Thread nD τ).loc main_arg1))) bitsLt_bf16_f32 := by
  dsimp only [V]
  simp only [hostOps0, hostOps0_1, hostOps0_2, hostOps0_3, hostOps0_4, List.flatten_cons, List.flatten_nil, List.append_nil, List.cons_append, List.nil_append]
  eval_line
  rfl

end Cert.KernelIdeal.Inputs

end
-- ==== Proof.RefTail.lean ====
/-
  The reference program after its sampled-and-joined rows: the five-layer perceptron of all the rows.

  From the array of rows (stage `val_main_v125` of the point array and the feature map, kept folded here) the
  reference computes four times a `dot_general` with a weight matrix, plus the bias vector laid out as a row and
  broadcast down the rows, clamped below at a broadcast zero, and then a last `dot_general` plus bias: `Mlp.net` of the
  rows, the weights and the biases as rows.
-/
import proofs.«120341_j9234179686517_2_alg».proof.Proof.RefReadP
import proofs.«120341_j9234179686517_2_alg».proof.Proof.Mlp

noncomputable section

namespace Cert.ReferenceIdeal.Tail

open Cert.ReferenceIdeal Cert.ReferenceIdeal.ReadP Idealize.ShloMosaic Idealize.ShloMosaic.ValueIdx Cert.MatProd Cert.Mlp

/-- The reference's three kinds of product are plain products: rows by contraction times contraction by columns. -/
theorem dims_7_16 : dot_S4000000x7_S7x16_S4000000x16_1_0_0_1_n_n = DotDims.plain 4000000 7 16 := rfl
theorem dims_16_16 : dot_S4000000x16_S16x16_S4000000x16_1_0_0_1_n_n = DotDims.plain 4000000 16 16 := rfl
theorem dims_16_3 : dot_S4000000x16_S16x3_S4000000x3_1_0_0_1_n_n = DotDims.plain 4000000 16 3 := rfl

/-- THE REFERENCE'S RESULT is the network of its array of rows. -/
theorem result_eq (x0 : (⟨S4000000x3, .f32⟩ : BufTy).Contents (Elt Ideal)) (x1 : (⟨S4x512x512, .f32⟩ : BufTy).Contents (Elt Ideal))
    (x2 : (⟨S7x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (x6 : (⟨S16x16, .f32⟩ : BufTy).Contents (Elt Ideal)) (x7 : (⟨S16, .f32⟩ : BufTy).Contents (Elt Ideal))
    (x8 : (⟨S16x16, .f32⟩ : BufTy).Contents (Elt Ideal)) (x9 : (⟨S16, .f32⟩ : BufTy).Contents (Elt Ideal))
    (x10 : (⟨S16x3, .f32⟩ : BufTy).Contents (Elt Ideal)) (x11 : (⟨S3, .f32⟩ : BufTy).Contents (Elt Ideal)) :
    val_main_v149 (F := Ideal) x0 x1 x2 x3 x4 x5 x6 x7 x8 x9 x10 x11
      = net (val_main_v125 (F := Ideal) x0 x1) x2 (asRow x3) x4 (asRow x5) x6 (asRow x7) x8 (asRow x9) x10 (asRow x11) := by
  unfold val_main_v149 val_main_v148 val_main_v147 val_main_v146
    val_main_v145 val_main_call5_v0 val_main_call5_cst val_main_v144 val_main_v143 val_main_v142 val_main_v141
    val_main_v140 val_main_call4_v0 val_main_call4_cst val_main_v139 val_main_v138 val_main_v137 val_main_v136
    val_main_v135 val_main_call3_v0 val_main_call3_cst val_main_v134 val_main_v133 val_main_v132 val_main_v131
    val_main_v130 val_main_call2_v0 val_main_call2_cst val_main_v129 val_main_v128 val_main_v127 val_main_v126
  generalize val_main_v125 (F := Ideal) x0 x1 = rows
  simp only [host_layer _ dims_7_16, host_layer _ dims_16_16]
  funext i
  obtain ⟨p, q, rfl⟩ : ∃ (p : Fin 4000000) (q : Fin 3), i = ix2 p q := ⟨i 0, i 1, eq_ix2 i⟩
  rw [host_affine _ dims_16_3]
  rfl

end Cert.ReferenceIdeal.Tail

end
-- ==== Proof.lean ====
/-
  The certificate of a row-tiled five-layer perceptron kernel against its jnp reference, over the extended reals.

  Both programs first sample a feature map bilinearly at the first two coordinates of each of 4,000,000 points and join
  the point's three coordinates with the four sampled features into a row of seven — the same host operations on the
  same two arguments, carried here as ONE function (the reference's stage `val_main_v125`) and never opened. The kernel
  then runs `relu(relu(relu(relu(h·W1 + b1)·W2 + b2)·W3 + b3)·W4 + b4)·W5 + b5` on blocks of 8000 rows, one block per
  grid point; the reference runs it on all the rows at once. The network acts on each row by itself (`Mlp.net_rows`),
  the 500 blocks cover the rows, and changing the float format of the rows, the weights and the activations is the
  identity over the extended reals: both result arrays are `Mlp.net` of all the rows (`Whole.result`,
  `Tail.result_eq`). Sums are compared term by term in the same order, so no finiteness of the inputs is used.

  The three frame claims are the generated frame runs; the idealization rewrote no operation of the kernel, so
  `preserves` has nothing to state.
-/
import proofs.«120341_j9234179686517_2_alg».proof.Defs
import proofs.«120341_j9234179686517_2_alg».proof.Proof.Gen.Kernel
import proofs.«120341_j9234179686517_2_alg».proof.Proof.Gen.Kernel.Frame
import proofs.«120341_j9234179686517_2_alg».proof.Proof.Gen.KernelIdeal
import proofs.«120341_j9234179686517_2_alg».proof.Proof.Gen.KernelIdeal.Frame
import proofs.«120341_j9234179686517_2_alg».proof.Proof.Gen.KernelIdeal.Value
import proofs.«120341_j9234179686517_2_alg».proof.Proof.Gen.ReferenceIdeal
import proofs.«120341_j9234179686517_2_alg».proof.Proof.RefRunP
import proofs.«120341_j9234179686517_2_alg».proof.Proof.RefReadP
import proofs.«120341_j9234179686517_2_alg».proof.Proof.Gen.Pre_finite_inputs
import proofs.«120341_j9234179686517_2_alg».proof.Proof.KernelWhole
import proofs.«120341_j9234179686517_2_alg».proof.Proof.InputRows
import proofs.«120341_j9234179686517_2_alg».proof.Proof.RefTail

noncomputable section

namespace Cert.Proof

open Idealize.ShloMosaic Idealize.ShloMosaic.TcCoe Idealize.SL.Sem

/-- The kernel as printed runs and leaves its arguments: the generated frame run. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is host operations only: its generated run, the result dropped. -/
theorem frame_r : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The kernel's result is the network of the sampled-and-joined rows of its first two arguments: the rows the region
    finds are that function of the point array and the feature map, in a narrower float format. -/
theorem kernel_result (m : (ℓ : Loc Cert.KernelIdeal.nD Cert.KernelIdeal.τ Cert.KernelIdeal.sig) → Buf (Elt Ideal) ℓ) (c : Dev Cert.KernelIdeal.nD) :
    Cert.KernelIdeal.Whole.result m c
      = Cert.Mlp.net (Cert.ReferenceIdeal.ReadP.val_main_v125 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
        (Cert.Mlp.asRow (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))
        (Cert.Mlp.asRow (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (Cert.Mlp.asRow (m ((c.tc : Thread Cert.KernelIdeal.nD Cert.KernelIdeal.τ).loc Cert.KernelIdeal.main_arg7)))
        (m ((c.tc : Thread Cert.KernelIdeal.nD Cert.KernelIdeal.τ).loc Cert.KernelIdeal.main_arg8))
        (Cert.Mlp.asRow (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (Cert.Mlp.asRow (m ((c.tc : Thread Cert.KernelIdeal.nD Cert.KernelIdeal.τ).loc Cert.KernelIdeal.main_arg11))) := by
  unfold Cert.KernelIdeal.Whole.result
  rw [(Cert.KernelIdeal.Inputs.rows_entry m c).trans (Cert.KernelIdeal.Body.narrow_id _ _)]

/-- Both result arrays are the network of all the sampled-and-joined rows of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v149_eq, Cert.ReferenceIdeal.Tail.result_eq, a0, a1, a2, a3, a4, a5, a6, a7, a8, a9, a10, a11]
  exact (kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
